-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256x256x256x1 : Shape := ⟨5, ![1, 256, 256, 256, 1]⟩
abbrev S_ : Shape := ⟨0, ![]⟩

class Facts : Prop where
  bcast_S_S1x256x256x256x1 : S_.BroadcastsInDim S1x256x256x256x1 (![] : Fin 0 → Fin S1x256x256x256x1.rank)
  reducesTo_S1x256x256x256x1_S_d0_1_2_3_4 : S1x256x256x256x1.ReducesTo [0, 1, 2, 3, 4] S_
  h_S_ : 0 < S_.numel

variable [Facts]

def fn {F : FTy → Type} [FloatOps F] (main_arg0 : FVec F S1x256x256x256x1 .f32) : IVec S_ 1 :=
  let main_v0 : FVec F S1x256x256x256x1 .f32 := Host.absf main_arg0
  let main_cst : FVec F S_ .f32 := constant S_ .f32 0x7F800000#32
  let main_v1 : FVec F S1x256x256x256x1 .f32 := broadcastInDim S1x256x256x256x1 ![] bcast_S_S1x256x256x256x1 main_cst
  let main_v2 : IVec S1x256x256x256x1 1 := cmpf .olt main_v0 main_v1
  let main_c : IVec S_ 1 := constantI S_ 1 1#1
  let main_v3 : IVec S_ 1 := (fun x v => Host.reduce IntOp.andi x v reducesTo_S1x256x256x256x1_S_d0_1_2_3_4 h_S_) main_v2 main_c
  main_v3
-- ==== Kernel.lean ====
abbrev S1x256x256x256x1 : Shape := ⟨5, ![1, 256, 256, 256, 1]⟩
abbrev S65536x256 : Shape := ⟨2, ![65536, 256]⟩
abbrev S4096x256 : Shape := ⟨2, ![4096, 256]⟩
abbrev S4096x1 : Shape := ⟨2, ![4096, 1]⟩

abbrev nBuf : Space → Nat
  | .hbm => 4
  | .vmem => 4
  | .smem => 0
  | _ => 0

abbrev bufTy : (tb : Table) → Fin (tcTables nBuf tb) → BufTy
  | .hbm, ⟨0, _⟩ => ⟨S1x256x256x256x1, .f32⟩
  | .hbm, ⟨1, _⟩ => ⟨S65536x256, .f32⟩
  | .hbm, ⟨2, _⟩ => ⟨S65536x256, .f32⟩
  | .hbm, ⟨3, _⟩ => ⟨S1x256x256x256x1, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | _, _ => ⟨S1x256x256x256x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S1x256x256x256x1_S65536x256 : S1x256x256x256x1.ShapeCasts S65536x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  iota_S4096x256_d1_w32 : S4096x256.Iotas .tc 32 [1]
  slices_S4096x256_o0_1_S4096x1 : S4096x256.Slices ![0, 1] S4096x1
  shapeCasts_S4096x1_S4096x1 : S4096x1.ShapeCasts S4096x1
  broadcasts_S4096x1_S4096x256 : S4096x1.Broadcasts S4096x256
  shapeCasts_S65536x256_S1x256x256x256x1 : S65536x256.ShapeCasts S1x256x256x256x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S65536x256.size a
  hwx0_1 : ∀ i : grid0.Coords, EltTy.bits .f32 = 32 ∨ (Rect.block (s := S65536x256) S4096x256.size (cc0_transform_1 i) (hinb0_1 i)).WholeWords (EltTy.packing .f32)

variable [Facts₀]

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1x256x256x256x1 : Shape := ⟨5, ![1, 256, 256, 256, 1]⟩
abbrev S1x256x256x1x1 : Shape := ⟨5, ![1, 256, 256, 1, 1]⟩
abbrev S256x256 : Shape := ⟨2, ![256, 256]⟩
abbrev S_ : Shape := ⟨0, ![]⟩
abbrev S1 : Shape := ⟨1, ![1]⟩
abbrev S3 : Shape := ⟨1, ![3]⟩

abbrev nBuf : Space → Nat
  | .hbm => 11
  | .vmem => 0
  | .smem => 0
  | _ => 0

abbrev bufTy : (tb : Table) → Fin (tcTables nBuf tb) → BufTy
  | .hbm, ⟨0, _⟩ => ⟨S1x256x256x256x1, .f32⟩
  | .hbm, ⟨1, _⟩ => ⟨S1x256x256x1x1, .f32⟩
  | .hbm, ⟨2, _⟩ => ⟨S256x256, .f32⟩
  | .hbm, ⟨3, _⟩ => ⟨S_, .i32⟩
  | .hbm, ⟨4, _⟩ => ⟨S1, .i32⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S1, .i32⟩
  | .hbm, ⟨9, _⟩ => ⟨S3, .i32⟩
  | .hbm, ⟨10, _⟩ => ⟨S1x256x256x256x1, .f32⟩
  | _, _ => ⟨S1x256x256x256x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_c_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  slices_S1x256x256x256x1_S1x256x256x1x1_0_0_0_1_0 : S1x256x256x256x1.Slices ![0, 0, 0, 1, 0] S1x256x256x1x1
  shapeCasts_S1x256x256x1x1_S256x256 : S1x256x256x1x1.ShapeCasts S256x256
  bcast_S_S1 : S_.BroadcastsInDim S1 (![] : Fin 0 → Fin S1.rank)
  concatenates_S1_S1_S1_S3_d0 : Shape.Concatenates [S1, S1, S1] S3 0
  scatter_S1x256x256x256x1_S3_S256x256_01_034_034_0_wf : ScatterDims.WF S1x256x256x256x1 S3 S256x256 [0, 1] [0, 3, 4] [0, 3, 4] 0

variable [Facts₀]

def scatter_S1x256x256x256x1_S3_S256x256_01_034_034_0 : ScatterDims S1x256x256x256x1 S3 S256x256 where
  updateWindowDims := [0, 1]
  insertedWindowDims := [0, 3, 4]
  scatterDimsToOperandDims := [0, 3, 4]
  indexVectorDim := 0
  wf := scatter_S1x256x256x256x1_S3_S256x256_01_034_034_0_wf

class Facts : Prop extends Facts₀ where

variable [Facts]
-- ==== Proof.Spec.lean ====
/-
  The function both programs compute, and its two spellings.

  The field is a 1 × 256 × 256 × 256 × 1 array, indexed (0, x, y, z, 0). The result is the field with its boundary
  plane z = 0 overwritten by the plane z = 1:
      out (0, x, y, z, 0) = b (0, x, y, 1, 0)   if z = 0,        b (0, x, y, z, 0)   otherwise          (`planeFix`).
  Flattened to 256·256 rows of 256 z-values (row x·256 + y), the same operation works row by row: entry 0 of a row is
  replaced by entry 1 of that row (`rowFix`). Flattening, fixing the rows and unflattening is `planeFix`
  (`unflatten_rowFix_flatten`): a reshape keeps row-major positions, and position ((x·256 + y)·256 + z) is both
  (0, x, y, z, 0) of the field and (x·256 + y, z) of the rows.

  No arithmetic is done on the entries, so everything here holds for entries of any type.
-/
import Idealize.ShloMosaic.Lib.Pipeline.Value
import Idealize.ShloMosaic.Lib.ValueIdx

namespace BoundaryPlane

open Idealize.ShloMosaic Idealize.ShloMosaic.ValueIdx

/-- The field's shape. -/
abbrev Field : Shape := ⟨5, ![1, 256, 256, 256, 1]⟩
/-- `n` rows of 256 z-values. -/
abbrev Rows (n : Nat) : Shape := ⟨2, ![n, 256]⟩

variable {α : Type}

/-- The field with its plane z = 0 overwritten by its plane z = 1. -/
def planeFix (x : Field.Idx → α) : Field.Idx → α := fun i =>
  if (i 3).val = 0 then x (ix5 (n0 := 1) (n1 := 256) (n2 := 256) (n3 := 256) (n4 := 1) (i 0) (i 1) (i 2) 1 (i 4)) else x i

/-- Rows of z-values, each with its entry 0 overwritten by its entry 1. -/
def rowFix {n : Nat} (X : (Rows n).Idx → α) : (Rows n).Idx → α := fun j =>
  if (j 1).val = 0 then X (ix2 (n0 := n) (n1 := 256) (j 0) 1) else X j

/-- Row x·256 + y of the flattened field. -/
abbrev rowOf (b1 b2 : Fin 256) : Fin 65536 := ⟨b1.val * 256 + b2.val, by have := b1.isLt; have := b2.isLt; omega⟩

/-- The flattened field at (x·256 + y, z) is the field at (0, x, y, z, 0). -/
theorem flatten_apply (x : Field.Idx → α) (h : Field.ShapeCasts (Rows 65536)) (b0 : Fin 1) (b1 b2 b3 : Fin 256) (b4 : Fin 1) :
    shapeCast (Rows 65536) x h (ix2 (rowOf b1 b2) b3) = x (ix5 b0 b1 b2 b3 b4) := by
  refine shapeCast_apply x h _ _ ?_
  rw [Shape.rowMajor_val_five, Shape.rowMajor_val_two]
  show (((b0.val * 256 + b1.val) * 256 + b2.val) * 256 + b3.val) * 1 + b4.val = (b1.val * 256 + b2.val) * 256 + b3.val
  have := b0.isLt; have := b4.isLt
  omega

/-- Rows unflattened to the field: (0, x, y, z, 0) holds entry z of row x·256 + y. -/
theorem unflatten_apply (Y : (Rows 65536).Idx → α) (h : (Rows 65536).ShapeCasts Field) (b0 : Fin 1) (b1 b2 b3 : Fin 256) (b4 : Fin 1) :
    shapeCast Field Y h (ix5 b0 b1 b2 b3 b4) = Y (ix2 (rowOf b1 b2) b3) := by
  refine shapeCast_apply Y h _ _ ?_
  rw [Shape.rowMajor_val_two, Shape.rowMajor_val_five]
  show (b1.val * 256 + b2.val) * 256 + b3.val = (((b0.val * 256 + b1.val) * 256 + b2.val) * 256 + b3.val) * 1 + b4.val
  have := b0.isLt; have := b4.isLt
  omega

/-- Flatten, overwrite entry 0 of every row by its entry 1, unflatten: the plane z = 0 overwritten by the plane z = 1. -/
theorem unflatten_rowFix_flatten (x : Field.Idx → α) (h₁ : Field.ShapeCasts (Rows 65536)) (h₂ : (Rows 65536).ShapeCasts Field) :
    shapeCast Field (rowFix (shapeCast (Rows 65536) x h₁)) h₂ = planeFix x := by
  funext i
  obtain ⟨b0, b1, b2, b3, b4, rfl⟩ : ∃ (b0 : Fin 1) (b1 b2 b3 : Fin 256) (b4 : Fin 1), i = ix5 b0 b1 b2 b3 b4 :=
    ⟨i 0, i 1, i 2, i 3, i 4, eq_ix5 i⟩
  rw [unflatten_apply]
  exact if_congr Iff.rfl (flatten_apply x h₁ b0 b1 b2 1 b4) (flatten_apply x h₁ b0 b1 b2 b3 b4)

end BoundaryPlane
-- ==== Proof.KernelPayload.lean ====
/-
  What the kernel body stores, read at an index of its block.

  The body loads its 4096 × 256 block, takes the lane iota along the z axis (axis 1), compares it with 0, slices column
  z = 1 out of the block, broadcasts that column along z, and selects: where the lane is 0 the broadcast column, elsewhere
  the block itself. So the stored block holds, at (r, z), the block's entry (r, 1) when z = 0 and its entry (r, z)
  otherwise: each row with its entry 0 overwritten by its entry 1 (`BoundaryPlane.rowFix`). Only words are compared and
  only entries are moved, so this holds at every float instance.
-/
import proofs.«180014_g32177894982284_cont_8to1_b_1677_2_alg».proof.Proof.Gen.KernelIdeal.Skeleton
import proofs.«180014_g32177894982284_cont_8to1_b_1677_2_alg».proof.Proof.Spec
import Idealize.ShloMosaic.Lib.Pipeline.Value
import Idealize.ShloMosaic.Lib.ValueIdx

noncomputable section

namespace Cert.KernelIdeal.Payload

open Idealize.ShloMosaic Idealize.ShloMosaic.ValueIdx Cert.KernelIdeal Cert.KernelIdeal.Gen

variable {F : FTy → Type} [FloatOps F]

/-- A select on "the z coordinate is 0", the coordinate below 256, is the `if` on the coordinate: a 32-bit word of a
    number below 2³² is the zero word only for the number 0. -/
theorem select_coord_eq0 {α : Type} (h : Nat) (hh : h < 256) (A B : α) :
    Scalar.select (IntOp.cmpi .eq (BitVec.ofNat 32 h) 0#32) A B = if h = 0 then A else B := by
  by_cases h0 : h = 0
  · subst h0; rfl
  · rw [if_neg h0]
    have hne : BitVec.ofNat 32 h ≠ 0#32 := by
      intro e
      have e' := congrArg BitVec.toNat e
      simp only [BitVec.toNat_ofNat] at e'
      omega
    have hb : (BitVec.ofNat 32 h == 0#32) = false := beq_eq_false_iff_ne.2 hne
    show (if BitVec.ofBool (BitVec.ofNat 32 h == 0#32) = 1 then A else B) = B
    rw [hb]
    rfl

/-- The stored block at row `p`, lane `q`: the loaded block's (p, 1) when q = 0, its (p, q) otherwise. -/
theorem pay_apply (x0 : Vec F S4096x256 .f32) (p : Fin 4096) (q : Fin 256) :
    k0_pay1 x0 (ix2 p q) = if q.val = 0 then x0 (ix2 p (1 : Fin 256)) else x0 (ix2 p q) := by
  unfold k0_pay1
  dsimp only
  rw [select_apply, shapeCast_self x0]
  show Scalar.select (IntOp.cmpi .eq (iota .tc S4096x256 32 [1] iota_S4096x256_d1_w32 (ix2 p q)) 0#32) _ _ = _
  rw [iota_single_apply, select_coord_eq0 q.val q.isLt]
  refine if_congr Iff.rfl ?_ rfl
  refine (broadcastTo_apply _ broadcasts_S4096x1_S4096x256 (ix2 p q) (ix2 p (0 : Fin 1)) (fun a => ?_)).trans ?_
  · match a with
    | ⟨0, _⟩ => rfl
    | ⟨1, _⟩ => rfl
  rw [shapeCast_self]
  exact extractStridedSlice_apply ![0, 1] x0 slices_S4096x256_o0_1_S4096x1 (ix2 p (0 : Fin 1)) (ix2 p (1 : Fin 256)) (fun a => by
    match a with
    | ⟨0, _⟩ => show p.val = 0 + p.val; omega
    | ⟨1, _⟩ => rfl)

/-- The stored block is the loaded block with entry 0 of every row overwritten by its entry 1. -/
theorem pay_eq (x0 : Vec F S4096x256 .f32) : k0_pay1 x0 = BoundaryPlane.rowFix (n := 4096) x0 := by
  funext j
  obtain ⟨p, q, rfl⟩ : ∃ (p : Fin 4096) (q : Fin 256), j = ix2 p q := ⟨j 0, j 1, eq_ix2 j⟩
  exact pay_apply x0 p q

end Cert.KernelIdeal.Payload

end
-- ==== Proof.KernelValue.lean ====
/-
  What the kernel's program leaves in its result.

  The program flattens the field to 65536 rows of 256 z-values, runs the body over 16 blocks of 4096 rows, and unflattens
  the rows it wrote. Block `t` of the input is rows 4096·t … 4096·t + 4095, and the body writes block `t` of the output
  from block `t` of the input alone, row by row (entry 0 of a row replaced by its entry 1). Since that operation only
  ever looks inside one row, a block of the fixed rows is the fixed block: what point `t` writes back is block `t` of
  `rowFix` of the whole flattened field (`written_block`). The 16 blocks cover every row (row r is in block r / 4096), so
  the output array ends as `rowFix` of the flattened field (`rows_after`), and the program's result is that, unflattened:
  `planeFix` of the field (`run`).
-/
import proofs.«180014_g32177894982284_cont_8to1_b_1677_2_alg».proof.Defs
import proofs.«180014_g32177894982284_cont_8to1_b_1677_2_alg».proof.Proof.Gen.KernelIdeal.Frame
import proofs.«180014_g32177894982284_cont_8to1_b_1677_2_alg».proof.Proof.KernelPayload
import proofs.«180014_g32177894982284_cont_8to1_b_1677_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.KernelValue

open Idealize.ShloMosaic Idealize.ShloMosaic.TcCoe Idealize.ShloMosaic.ValueIdx Idealize.SL.Sem
open Idealize.ShloMosaic.Pipeline (Dat)
open Cert.KernelIdeal Cert.KernelIdeal.Gen BoundaryPlane

/-! ## A block of the fixed rows is the fixed block -/

/-- Rows `k·4096 … k·4096 + 4095` of an array of rows, read through two embeddings of the block that both put block
    entry (r, z) at (k·4096 + r, z): fixing the rows of the block is the block of the fixed rows. -/
theorem rowFix_block {α : Type} {n : Nat} (X : (Rows n).Idx → α) (k : Nat) (ein eout : (Rows 4096).Idx → (Rows n).Idx)
    (hin : ∀ y, ((ein y) 0).val = k * 4096 + 1 * (y 0).val ∧ ((ein y) 1).val = 0 * 256 + 1 * (y 1).val)
    (hout : ∀ y, ((eout y) 0).val = k * 4096 + 1 * (y 0).val ∧ ((eout y) 1).val = 0 * 256 + 1 * (y 1).val)
    (j : (Rows 4096).Idx) :
    rowFix (fun y => X (ein y)) j = rowFix X (eout j) := by
  unfold rowFix
  have hc : ((eout j) 1).val = (j 1).val := by rw [(hout j).2]; omega
  refine if_congr (by rw [hc]) (congrArg X ?_) (congrArg X ?_)
  · funext a; apply Fin.ext
    match a with
    | ⟨0, _⟩ => exact ((hin (ix2 (n0 := 4096) (n1 := 256) (j 0) 1)).1).trans (hout j).1.symm
    | ⟨1, _⟩ => exact ((hin (ix2 (n0 := 4096) (n1 := 256) (j 0) 1)).2).trans (by rfl)
  · funext a; apply Fin.ext
    match a with
    | ⟨0, _⟩ => exact (hin j).1.trans (hout j).1.symm
    | ⟨1, _⟩ => exact (hin j).2.trans (hout j).2.symm

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-! ## The rows the region finds -/

/-- The region's input array is the field, flattened (the one host operation before the region). -/
theorem rows_at_entry (c : Dev nD) :
    (V m c main_v0 : S65536x256.Idx → Elt F .f32)
      = shapeCast S65536x256 (m ((c.tc : Thread nD τ).loc main_arg0)) shapeCasts_S1x256x256x256x1_S65536x256 := by
  show StableHlo.after hostOps0 (fun b => m (c, b)) (Proc.devRef .tc main_v0) = _
  after_results
  rfl

/-! ## What a point writes back -/

/-- The printed index maps over the grid: both windows' block `t` starts at row block `t` (at most 15) and lane block 0. -/
theorem index_facts : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 15 :=
  (by decide +kernel : ∀ t : Fin grid0.N, _)

/-- Every one of the 16 row blocks is some point's. -/
theorem index_onto : ∀ q : Fin 16, ∃ t : Fin cfg0.N, win0_1.index t = ![q.val, 0] :=
  (by decide +kernel : ∀ q : Fin 16, ∃ t : Fin grid0.N, win0_1.index t = ![q.val, 0])

/-- What point `t` writes back is block `t` of the fixed rows of the whole flattened field. -/
theorem written_block (c : Dev nD) (t : Fin cfg0.N) :
    (dats m 0 c).flushed 1 t = ((cfg0.win 1).blk t).view.read (Elt F) (rowFix (n := 65536) (V m c main_v0)) := by
  show (cfg0.win 1).cut (grid0.coords t) ((dats m 0 c).after 1 t) = _
  rw [after0_1]
  unfold out0_1
  rw [View.canon_unit_zero zero_offsets]
  simp only [View.ld_unit_zero (S := S4096x256) zero_offsets]
  rw [Payload.pay_eq]
  obtain ⟨e0, e1, e2, e3⟩ := index_facts t
  funext j
  show rowFix (n := 4096) (fun y => V m c main_v0 (((cfg0.win 0).blk t).view.emb y)) j
    = rowFix (n := 65536) (V m c main_v0) (((cfg0.win 1).blk t).view.emb j)
  refine rowFix_block (V m c main_v0) (win0_1.index t (0 : Fin 2)) (fun y => ((cfg0.win 0).blk t).view.emb y)
    (fun y => ((cfg0.win 1).blk t).view.emb y) (fun y => ⟨?_, ?_⟩) (fun y => ⟨?_, ?_⟩) j
  · show win0_0.index t (0 : Fin 2) * 4096 + 1 * (y 0).val = win0_1.index t (0 : Fin 2) * 4096 + 1 * (y 0).val
    rw [e0]
  · show win0_0.index t (1 : Fin 2) * 256 + 1 * (y 1).val = 0 * 256 + 1 * (y 1).val
    rw [e1]
  · show win0_1.index t (0 : Fin 2) * 4096 + 1 * (y 0).val = win0_1.index t (0 : Fin 2) * 4096 + 1 * (y 0).val
    rfl
  · show win0_1.index t (1 : Fin 2) * 256 + 1 * (y 1).val = 0 * 256 + 1 * (y 1).val
    rw [e2]

/-! ## The blocks cover the rows -/

/-- A row index is in point `t`'s block iff each coordinate is in the block's range on its axis. -/
theorem mem_block (t : Fin cfg0.N) (i : S65536x256.Idx) :
    i ∈ ((cfg0.win 1).blk t).view.set ↔ ∀ a : Fin 2, win0_1.index t a * S4096x256.size a ≤ (i a).val
      ∧ (i a).val < win0_1.index t a * S4096x256.size a + S4096x256.size a := by
  show i ∈ ((View.whole main_v1).slice (win0_1.rect t)).set ↔ _
  rw [View.set_slice_whole, Rect.mem_set_unit]
  exact Iff.rfl

/-- Row `r` is in the block of the point whose row block is `r / 4096`. -/
theorem blocks_cover (i : S65536x256.Idx) :
    ∃ t : Fin cfg0.N, (cfg0.win 1).flush t = true ∧ i ∈ ((cfg0.win 1).blk t).view.set := by
  have hi0 : (i 0).val < 65536 := (i 0).isLt
  have hi1 : (i 1).val < 256 := (i 1).isLt
  obtain ⟨t, ht⟩ := index_onto ⟨(i 0).val / 4096, by omega⟩
  have q0 : win0_1.index t (0 : Fin 2) = (i 0).val / 4096 := congrFun ht 0
  have q1 : win0_1.index t (1 : Fin 2) = 0 := congrFun ht 1
  refine ⟨t, flush0_1 t, ?_⟩
  rw [mem_block]
  intro a
  match a with
  | ⟨0, _⟩ =>
    show win0_1.index t (0 : Fin 2) * 4096 ≤ (i 0).val ∧ (i 0).val < win0_1.index t (0 : Fin 2) * 4096 + 4096
    omega
  | ⟨1, _⟩ =>
    show win0_1.index t (1 : Fin 2) * 256 ≤ (i 1).val ∧ (i 1).val < win0_1.index t (1 : Fin 2) * 256 + 256
    omega

/-- The output array after the region: the flattened field with entry 0 of every row overwritten by its entry 1. -/
theorem rows_after (c : Dev nD) : (dats m 0 c).arrAt 1 cfg0.N = rowFix (n := 65536) (V m c main_v0) :=
  (dats m 0 c).arrAt_eq_of_cover 1 _ (fun t _ => written_block m c t) blocks_cover

/-! ## The host operation after the region, and the run -/

/-- The program's result: the rows the region wrote, unflattened. -/
theorem result_after (c : Dev nD) :
    Pipeline.afterTail₀ cfgs (dats m) 0 (V0 m) [hostOps1] c main_v2
      = shapeCast S1x256x256x256x1
          (rowFix (n := 65536) (shapeCast S65536x256 (m ((c.tc : Thread nD τ).loc main_arg0)) shapeCasts_S1x256x256x256x1_S65536x256))
          shapeCasts_S65536x256_S1x256x256x256x1 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = rowFix (n := 65536) (shapeCast S65536x256 (m ((c.tc : Thread nD τ).loc main_arg0)) shapeCasts_S1x256x256x256x1_S65536x256) :=
    ((Pipeline.withArrays_arr spec0 launch0.win.arr_inj c _ _ 1).trans (rows_after m c)).trans
      (congrArg (rowFix (n := 65536)) (rows_at_entry m c))
  rw [hw]
  rfl

/-- THE RUN: every weakly fair execution of the program terminates with its result at the field with its plane z = 0
    overwritten by its plane z = 1, and the field itself unchanged. -/
theorem run : θ_run defs (onTc (τ := τ) (main (F := F))) ⟨m, fun _ => 0, ρ⟩ fun r => ∀ c : Dev nD,
      r.2.mem ((c.tc : Thread nD τ).loc main_v2) = planeFix (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans
          ((result_after m c).trans (unflatten_rowFix_flatten _ _ _)),
        ((h c).2 main_arg0 (Pipeline.mem_restRefs_of main_arg0 (by decide) (by decide))).trans (W_main_arg0 m (dats m) c)⟩)
    (run_main m ρ)

end Cert.KernelIdeal.KernelValue

end
-- ==== Proof.LibScatterSet.lean ====
/-
  A `stablehlo.scatter` read at ONE index of its result.

  The scatter is a left fold over the update indices, in row-major order: update index `j` lands at the operand index
  `start j + window j` (coordinate by coordinate), when that is inside the operand, and replaces the element there by the
  body applied to it and the update's element. So at a fixed operand index `i`:
    * if NO update index lands at `i`, the result holds the operand's element (whatever the body);
    * if the body returns the update (`.at[…].set`) and every update index landing at `i` carries one and the same
      value `c` — in particular when exactly one lands there —, the result holds `c`.
  `resultIdx?_eq_some_iff` says when update index `j` lands at `i`: on every axis, `i`'s coordinate is the window's start
  plus `j`'s window coordinate (the "inside the operand" test is then automatic, `i` being an index of the operand).
  `start_eq_zero`: when the scatter indices are all zero words (`x.at[0, :, :, 0, 0]`), every window starts at 0.
-/
import Idealize.ShloMosaic.PureOps.ShapeOps

namespace Idealize.ShloMosaic.ScatterRead

open Idealize.ShloMosaic

/-! ## A left fold of "overwrite one point" steps, read at a point -/

section Fold
variable {α ι κ : Type}

/-- A fold whose steps leave the point `i` alone (none of the listed steps targets it) keeps the start value there. -/
theorem foldl_apply_of_forall_ne (F : (κ → α) → ι → (κ → α)) (g : ι → Option κ) (i : κ)
    (hne : ∀ r n, g n ≠ some i → F r n i = r i) :
    ∀ (l : List ι) (x : κ → α), (∀ n ∈ l, g n ≠ some i) → l.foldl F x i = x i
  | [], _, _ => rfl
  | a :: l, x, h => by
    rw [List.foldl_cons, foldl_apply_of_forall_ne F g i hne l (F x a) (fun n hn => h n (List.mem_cons_of_mem _ hn))]
    exact hne x a (h a List.mem_cons_self)

/-- A fold of overwriting steps, at a point `i` that some listed step targets, all such steps carrying the value `c`:
    the last of them wrote `c` and no later step touches `i`. -/
theorem foldl_apply_of_hits (F : (κ → α) → ι → (κ → α)) (g : ι → Option κ) (v : ι → α) (i : κ) (c : α)
    (hne : ∀ r n, g n ≠ some i → F r n i = r i) (heq : ∀ r n, g n = some i → F r n i = v n) :
    ∀ (l : List ι) (x : κ → α), (∀ n ∈ l, g n = some i → v n = c) → (∃ n ∈ l, g n = some i) → l.foldl F x i = c
  | [], _, _, hex => by obtain ⟨n, hn, _⟩ := hex; cases hn
  | a :: l, x, hall, hex => by
    rw [List.foldl_cons]
    by_cases h : ∃ n ∈ l, g n = some i
    · exact foldl_apply_of_hits F g v i c hne heq l (F x a) (fun n hn => hall n (List.mem_cons_of_mem _ hn)) h
    · have h' : ∀ n ∈ l, g n ≠ some i := fun n hn e => h ⟨n, hn, e⟩
      rw [foldl_apply_of_forall_ne F g i hne l (F x a) h']
      obtain ⟨n, hn, hg⟩ := hex
      rcases List.mem_cons.1 hn with rfl | hn'
      · rw [heq x n hg]; exact hall n List.mem_cons_self hg
      · exact absurd hg (h' n hn')

end Fold

/-! ## Where an update index lands -/

section Scatter
variable {α : Type} {s si u : Shape} {w : Nat}

/-- Update index `j` lands at the operand index `i` exactly when, on every axis, `i`'s coordinate is the window's start
    plus `j`'s window coordinate. -/
theorem resultIdx?_eq_some_iff (d : ScatterDims s si u) (j : u.Idx) (idx : IVec si w) (i : s.Idx) :
    d.resultIdx? j idx = some i ↔ ∀ a, ((i a).val : Int) = d.start j idx a + d.window j a := by
  unfold ScatterDims.resultIdx?
  split
  · rename_i h
    constructor
    · intro e a
      have e' := Option.some.inj e
      rw [← e']
      exact Int.toNat_of_nonneg (h a).1
    · intro e
      refine congrArg some (funext fun a => Fin.ext ?_)
      show (d.start j idx a + d.window j a).toNat = (i a).val
      rw [← e a]; exact Int.toNat_natCast _
  · rename_i h
    constructor
    · intro e; cases e
    · intro e
      exact absurd (fun a => ⟨by rw [← e a]; exact Int.natCast_nonneg _,
        by rw [← e a]; exact Int.ofNat_lt.2 (i a).isLt⟩) h

/-- With every component of every start index the zero word, every window starts at 0 on every axis. -/
theorem start_eq_zero (d : ScatterDims s si u) (j : u.Idx) (idx : IVec si w) (hidx : ∀ k, idx k = 0#w) (a : Fin s.rank) :
    d.start j idx a = 0 := by
  unfold ScatterDims.start
  split
  · rw [hidx]; exact BitVec.toInt_zero
  · rfl

/-! ## The scatter at an index -/

/-- No update index lands at `i`: the scatter's result holds the operand's element there, whatever the body. -/
theorem scatter_apply_of_forall_ne (d : ScatterDims s si u) (f : α → α → α) (x : s.Idx → α) (idx : IVec si w)
    (upd : u.Idx → α) (i : s.Idx) (h : ∀ j : u.Idx, d.resultIdx? j idx ≠ some i) :
    Host.scatter d f x idx upd i = x i := by
  unfold Host.scatter
  refine foldl_apply_of_forall_ne _ (fun n => d.resultIdx? (u.rowMajor.symm n) idx) i ?_ _ x (fun n _ => h _)
  intro r n hn
  generalize d.resultIdx? (u.rowMajor.symm n) idx = o at hn ⊢
  cases o with
  | none => rfl
  | some i₀ =>
    show (if i = i₀ then _ else r i) = r i
    rw [if_neg]
    intro e
    exact hn (by rw [e])

/-- A scatter whose body returns the update (`.at[…].set`), at an index `i` where update index `j₀` lands, every update
    index landing there carrying the same value as `j₀` (so, in particular, when only `j₀` lands there): the result
    holds `j₀`'s update. -/
theorem scatter_set_apply (d : ScatterDims s si u) (x : s.Idx → α) (idx : IVec si w) (upd : u.Idx → α) (i : s.Idx)
    (j₀ : u.Idx) (h₀ : d.resultIdx? j₀ idx = some i) (hsame : ∀ j : u.Idx, d.resultIdx? j idx = some i → upd j = upd j₀) :
    Host.scatter d (fun _ b => b) x idx upd i = upd j₀ := by
  unfold Host.scatter
  refine foldl_apply_of_hits _ (fun n => d.resultIdx? (u.rowMajor.symm n) idx) (fun n => upd (u.rowMajor.symm n)) i
    (upd j₀) ?_ ?_ _ x (fun n _ hn => hsame _ hn)
    ⟨u.rowMajor j₀, List.mem_finRange _, by rw [Equiv.symm_apply_apply]; exact h₀⟩
  · intro r n hn
    generalize d.resultIdx? (u.rowMajor.symm n) idx = o at hn ⊢
    cases o with
    | none => rfl
    | some i₀ =>
      show (if i = i₀ then _ else r i) = r i
      rw [if_neg]
      intro e
      exact hn (by rw [e])
  · intro r n hn
    generalize hv : upd (u.rowMajor.symm n) = v
    generalize d.resultIdx? (u.rowMajor.symm n) idx = o at hn ⊢
    cases o with
    | none => cases hn
    | some i₀ =>
      show (if i = i₀ then v else r i) = v
      rw [if_pos (Option.some.inj hn).symm]

end Scatter

end Idealize.ShloMosaic.ScatterRead
-- ==== Proof.RefValue.lean ====
/-
  The reference computes the plane fix.

  The reference slices the plane z = 1 out of the field, reshapes it to a 256 × 256 array of updates u (x, y) =
  b (0, x, y, 1, 0), builds the start index (0, 0, 0) for the operand axes (0, 3, 4), and scatters: update (x, y) is
  written at operand index (0 + 0, x, y, 0 + 0, 0 + 0), the update's two axes being the window over the operand's axes
  1 and 2. So an operand index (0, x, y, z, 0) with z = 0 is hit by exactly one update, (x, y), and ends holding
  b (0, x, y, 1, 0); one with z ≠ 0 is hit by none and keeps b (0, x, y, z, 0). That is `BoundaryPlane.planeFix`.
-/
import proofs.«180014_g32177894982284_cont_8to1_b_1677_2_alg».proof.Defs
import proofs.«180014_g32177894982284_cont_8to1_b_1677_2_alg».proof.Proof.Gen.ReferenceIdeal.Run
import proofs.«180014_g32177894982284_cont_8to1_b_1677_2_alg».proof.Proof.Gen.ReferenceIdeal.Read
import proofs.«180014_g32177894982284_cont_8to1_b_1677_2_alg».proof.Proof.LibScatterSet
import proofs.«180014_g32177894982284_cont_8to1_b_1677_2_alg».proof.Proof.Spec
import Idealize.ShloMosaic.Lib.ValueIdx

noncomputable section

namespace Cert.ReferenceIdeal.RefValue

open Idealize.ShloMosaic Idealize.ShloMosaic.ValueIdx Idealize.ShloMosaic.ScatterRead
open Cert.ReferenceIdeal Cert.ReferenceIdeal.Gen Cert.ReferenceIdeal.Read

variable {F : FTy → Type} [FloatOps F]

/-- A concatenation of pieces that all hold one value everywhere holds that value everywhere. -/
theorem concatenate_const {α : Type} {t : Shape} (a : Fin t.rank) (xs : List ((s : Shape) × (s.Idx → α)))
    (h : Shape.Concatenates (xs.map (·.1)) t a) (c : α) (hx : ∀ p ∈ xs, ∀ k, p.2 k = c) (j : t.Idx) :
    concatenate t a xs h j = c := by
  unfold concatenate
  dsimp only
  exact hx _ (List.getElem_mem _) _

/-- The start index is (0, 0, 0). -/
theorem start_index_zero (k : S3.Idx) : val_main_v5 (F := F) k = 0#32 := by
  unfold val_main_v5
  refine concatenate_const _ _ _ _ (fun p hp k' => ?_) k
  simp only [List.mem_cons, List.mem_nil_iff, or_false] at hp
  rcases hp with rfl | rfl | rfl
  · exact (val_main_v2_apply (F := F) k').trans (val_main_c_apply _)
  · exact (val_main_v3_apply (F := F) k').trans (val_main_c_0_apply _)
  · exact (val_main_v4_apply (F := F) k').trans (val_main_c_1_apply _)

/-- The scatter's dimension numbers, under a short name. -/
abbrev D := scatter_S1x256x256x256x1_S3_S256x256_01_034_034_0

/-- Update (x, y)'s window coordinates on the operand's axes: x on axis 1, y on axis 2, 0 on the inserted axes 0, 3, 4. -/
theorem window_eq (j : S256x256.Idx) (a : Fin 5) :
    D.window j a = (![0, (j 0).val, (j 1).val, 0, 0] : Fin 5 → Nat) a := by
  match a with
  | ⟨0, _⟩ => rfl
  | ⟨1, _⟩ => rfl
  | ⟨2, _⟩ => rfl
  | ⟨3, _⟩ => rfl
  | ⟨4, _⟩ => rfl

/-- Update (x, y) lands at the operand index `i` exactly when `i` is (0, x, y, 0, 0). -/
theorem lands_iff (j : S256x256.Idx) (i : S1x256x256x256x1.Idx) :
    D.resultIdx? j (val_main_v5 (F := F)) = some i
      ↔ (i 0).val = 0 ∧ (i 1).val = (j 0).val ∧ (i 2).val = (j 1).val ∧ (i 3).val = 0 ∧ (i 4).val = 0 := by
  rw [resultIdx?_eq_some_iff]
  constructor
  · intro h
    have e := fun a => (h a).trans (by rw [start_eq_zero D j _ (start_index_zero (F := F)) a, window_eq, Int.zero_add])
    exact ⟨Int.ofNat.inj (e 0), Int.ofNat.inj (e 1), Int.ofNat.inj (e 2), Int.ofNat.inj (e 3), Int.ofNat.inj (e 4)⟩
  · rintro ⟨h0, h1, h2, h3, h4⟩ a
    rw [start_eq_zero D j _ (start_index_zero (F := F)) a, window_eq, Int.zero_add]
    match a with
    | ⟨0, _⟩ => exact congrArg Int.ofNat h0
    | ⟨1, _⟩ => exact congrArg Int.ofNat h1
    | ⟨2, _⟩ => exact congrArg Int.ofNat h2
    | ⟨3, _⟩ => exact congrArg Int.ofNat h3
    | ⟨4, _⟩ => exact congrArg Int.ofNat h4

/-- The update array: (x, y) holds the field's (0, x, y, 1, 0). -/
theorem update_apply (x0 : (⟨S1x256x256x256x1, .f32⟩ : BufTy).Contents (Elt F)) (b0 : Fin 1) (b1 b2 : Fin 256) (b4 : Fin 1) :
    val_main_v1 (F := F) x0 (ix2 b1 b2) = x0 (ix5 b0 b1 b2 (1 : Fin 256) b4) := by
  rw [val_main_v1_apply, val_main_v0_apply]
  refine congrArg x0 (funext fun a => Fin.ext ?_)
  have := b0.isLt; have := b4.isLt; have := b1.isLt; have := b2.isLt
  match a with
  | ⟨0, _⟩ => show 0 = b0.val; omega
  | ⟨1, _⟩ => show (b1.val * 256 + b2.val) / 256 % 256 = b1.val; omega
  | ⟨2, _⟩ => show (b1.val * 256 + b2.val) / 1 % 256 = b2.val; omega
  | ⟨3, _⟩ => rfl
  | ⟨4, _⟩ => show 0 = b4.val; omega

/-- The reference's result is the field with its plane z = 0 overwritten by its plane z = 1. -/
theorem result_eq (x0 : (⟨S1x256x256x256x1, .f32⟩ : BufTy).Contents (Elt F)) :
    val_main_v6 (F := F) x0 = BoundaryPlane.planeFix x0 := by
  funext i
  obtain ⟨b0, b1, b2, b3, b4, rfl⟩ : ∃ (b0 : Fin 1) (b1 b2 b3 : Fin 256) (b4 : Fin 1), i = ix5 b0 b1 b2 b3 b4 :=
    ⟨i 0, i 1, i 2, i 3, i 4, eq_ix5 i⟩
  have hb0 := b0.isLt; have hb4 := b4.isLt
  unfold val_main_v6 BoundaryPlane.planeFix
  by_cases hz : b3.val = 0
  · rw [if_pos hz]
    refine (scatter_set_apply D x0 (val_main_v5 (F := F)) (val_main_v1 (F := F) x0) _ (ix2 b1 b2) ?_ ?_).trans
      (update_apply x0 b0 b1 b2 b4)
    · exact (lands_iff _ _).2 ⟨by show b0.val = 0; omega, rfl, rfl, hz, by show b4.val = 0; omega⟩
    · intro j hj
      obtain ⟨-, h1, h2, -, -⟩ := (lands_iff _ _).1 hj
      have : j = ix2 b1 b2 := by
        rw [eq_ix2 j]
        exact congrArg₂ ix2 (Fin.ext h1.symm) (Fin.ext h2.symm)
      rw [this]
  · rw [if_neg hz]
    exact scatter_apply_of_forall_ne D _ x0 _ _ _ (fun j hj => hz ((lands_iff _ _).1 hj).2.2.2.1)

end Cert.ReferenceIdeal.RefValue

end
-- ==== Proof.lean ====
/-
  The kernel and its reference compute one function: the boundary plane fix of a 1 × 256 × 256 × 256 × 1 field b,
      out (0, x, y, z, 0) = b (0, x, y, 1, 0)  if z = 0,      b (0, x, y, z, 0)  otherwise.

  The kernel flattens the field to 65536 rows of 256 z-values, and block by block (16 blocks of 4096 rows) stores each
  row with its entry 0 replaced by its entry 1 — a lane select on "z = 0" between the block and its column z = 1
  broadcast along z —, then unflattens. A block of the fixed rows is the fixed block, the 16 blocks cover all rows, and a
  reshape keeps row-major positions, so the result is the plane fix (Proof/KernelPayload.lean, Proof/KernelValue.lean,
  Proof/Spec.lean). The reference scatters the plane z = 1 into the field at start index (0, 0, 0) on the axes (0, 3, 4):
  an index with z = 0 is hit by exactly one update, one with z ≠ 0 by none, which is the plane fix again
  (Proof/LibScatterSet.lean, Proof/RefValue.lean). No arithmetic is done on the entries: the two results agree entry by
  entry for entries of any kind, the extended reals included, and the finiteness of the input is never used.

  The three frames are the programs' runs with the result dropped; the idealization rewrote nothing, so `preserves` is
  trivial.
-/
import proofs.«180014_g32177894982284_cont_8to1_b_1677_2_alg».proof.Defs
import proofs.«180014_g32177894982284_cont_8to1_b_1677_2_alg».proof.Proof.Gen.Kernel
import proofs.«180014_g32177894982284_cont_8to1_b_1677_2_alg».proof.Proof.Gen.Kernel.Skeleton
import proofs.«180014_g32177894982284_cont_8to1_b_1677_2_alg».proof.Proof.Gen.Kernel.Launch
import proofs.«180014_g32177894982284_cont_8to1_b_1677_2_alg».proof.Proof.Gen.Kernel.Points
import proofs.«180014_g32177894982284_cont_8to1_b_1677_2_alg».proof.Proof.Gen.Kernel.Frame
import proofs.«180014_g32177894982284_cont_8to1_b_1677_2_alg».proof.Proof.Gen.KernelIdeal
import proofs.«180014_g32177894982284_cont_8to1_b_1677_2_alg».proof.Proof.Gen.KernelIdeal.Skeleton
import proofs.«180014_g32177894982284_cont_8to1_b_1677_2_alg».proof.Proof.Gen.KernelIdeal.Launch
import proofs.«180014_g32177894982284_cont_8to1_b_1677_2_alg».proof.Proof.Gen.KernelIdeal.Points
import proofs.«180014_g32177894982284_cont_8to1_b_1677_2_alg».proof.Proof.Gen.KernelIdeal.Frame
import proofs.«180014_g32177894982284_cont_8to1_b_1677_2_alg».proof.Proof.Gen.ReferenceIdeal
import proofs.«180014_g32177894982284_cont_8to1_b_1677_2_alg».proof.Proof.Gen.ReferenceIdeal.Run
import proofs.«180014_g32177894982284_cont_8to1_b_1677_2_alg».proof.Proof.Gen.ReferenceIdeal.Read
import proofs.«180014_g32177894982284_cont_8to1_b_1677_2_alg».proof.Proof.Gen.Pre_finite_inputs
import proofs.«180014_g32177894982284_cont_8to1_b_1677_2_alg».proof.Proof.KernelValue
import proofs.«180014_g32177894982284_cont_8to1_b_1677_2_alg».proof.Proof.RefValue
import Idealize.ShloMosaic.Adequacy
import Idealize.ShloMosaic.Init

noncomputable section

namespace Cert.Proof

open Idealize.ShloMosaic Idealize.SL.Sem

/-- The kernel as printed runs and leaves the field unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves the field unchanged: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From fields that agree, both programs end holding the field's plane fix. -/
theorem algebraic : Cert.algebraic_KernelIdeal_ReferenceIdeal := by
  intro m ρ m' ρ' _ hagree
  refine ⟨fun c => BoundaryPlane.planeFix (m ((c.tc : Thread Cert.KernelIdeal.nD Cert.KernelIdeal.τ).loc Cert.KernelIdeal.main_arg0)),
    Cert.KernelIdeal.KernelValue.run (F := Ideal) m ρ, ?_⟩
  refine (θ_run Cert.ReferenceIdeal.defs _ _).mono (fun _ h c => ⟨(h c).1.trans ?_, (h c).2⟩)
    (Cert.ReferenceIdeal.Value.run (F := Ideal) m' ρ')
  exact ((Cert.ReferenceIdeal.Read.val_main_v6_eq (F := Ideal) _).trans (Cert.ReferenceIdeal.RefValue.result_eq _)).trans
    (congrArg BoundaryPlane.planeFix (hagree c))

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
